-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x12x196x64 : Shape := ⟨4, ![256, 12, 196, 64]⟩
abbrev S_ : Shape := ⟨0, ![]⟩

class Facts : Prop where
  bcast_S_S256x12x196x64 : S_.BroadcastsInDim S256x12x196x64 (![] : Fin 0 → Fin S256x12x196x64.rank)
  reducesTo_S256x12x196x64_S_d0_1_2_3 : S256x12x196x64.ReducesTo [0, 1, 2, 3] S_
  h_S_ : 0 < S_.numel

variable [Facts]

def fn {F : FTy → Type} [FloatOps F] (main_arg0 : FVec F S256x12x196x64 .f32) : IVec S_ 1 :=
  let main_v0 : FVec F S256x12x196x64 .f32 := Host.absf main_arg0
  let main_cst : FVec F S_ .f32 := constant S_ .f32 0x7F800000#32
  let main_v1 : FVec F S256x12x196x64 .f32 := broadcastInDim S256x12x196x64 ![] bcast_S_S256x12x196x64 main_cst
  let main_v2 : IVec S256x12x196x64 1 := cmpf .olt main_v0 main_v1
  let main_c : IVec S_ 1 := constantI S_ 1 1#1
  let main_v3 : IVec S_ 1 := (fun x v => Host.reduce IntOp.andi x v reducesTo_S256x12x196x64_S_d0_1_2_3 h_S_) main_v2 main_c
  main_v3
-- ==== Kernel.lean ====
abbrev S256x12x196x64 : Shape := ⟨4, ![256, 12, 196, 64]⟩
abbrev S12x64 : Shape := ⟨2, ![12, 64]⟩
abbrev S8x12x196x64 : Shape := ⟨4, ![8, 12, 196, 64]⟩
abbrev S12x1x64 : Shape := ⟨3, ![12, 1, 64]⟩
abbrev S12x196x64 : Shape := ⟨3, ![12, 196, 64]⟩
abbrev S1x12x196x64 : Shape := ⟨4, ![1, 12, 196, 64]⟩

abbrev nBuf : Space → Nat
  | .hbm => 5
  | .vmem => 7
  | .smem => 0
  | _ => 0

abbrev bufTy : (tb : Table) → Fin (tcTables nBuf tb) → BufTy
  | .hbm, ⟨0, _⟩ => ⟨S256x12x196x64, .f32⟩
  | .hbm, ⟨1, _⟩ => ⟨S12x64, .f32⟩
  | .hbm, ⟨2, _⟩ => ⟨S12x64, .f32⟩
  | .hbm, ⟨3, _⟩ => ⟨S12x64, .f32⟩
  | .hbm, ⟨4, _⟩ => ⟨S256x12x196x64, .f32⟩
  | .local _ .vmem, ⟨0, _⟩ => ⟨S8x12x196x64, .f32⟩
  | .local _ .vmem, ⟨1, _⟩ => ⟨S8x12x196x64, .f32⟩
  | .local _ .vmem, ⟨2, _⟩ => ⟨S12x64, .f32⟩
  | .local _ .vmem, ⟨3, _⟩ => ⟨S12x64, .f32⟩
  | .local _ .vmem, ⟨4, _⟩ => ⟨S12x64, .f32⟩
  | .local _ .vmem, ⟨5, _⟩ => ⟨S8x12x196x64, .f32⟩
  | .local _ .vmem, ⟨6, _⟩ => ⟨S8x12x196x64, .f32⟩
  | _, _ => ⟨S256x12x196x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x12x196x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x12x196x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S12x64_S12x64_0_0 : ∀ a, (![0, 0] : Fin 2 → Nat) a + S12x64.size a ≤ S12x64.size a
  h_S12x64 : 0 < S12x64.numel
  shapeCasts_S12x64_S12x1x64 : S12x64.ShapeCasts S12x1x64
  inb_S8x12x196x64_S1x12x196x64_0_0_0_0 : ∀ a, (![0, 0, 0, 0] : Fin 4 → Nat) a + S1x12x196x64.size a ≤ S8x12x196x64.size a
  h_S1x12x196x64 : 0 < S1x12x196x64.numel
  shapeCasts_S1x12x196x64_S12x196x64 : S1x12x196x64.ShapeCasts S12x196x64
  inb_S8x12x196x64_S1x12x196x64_1_0_0_0 : ∀ a, (![1, 0, 0, 0] : Fin 4 → Nat) a + S1x12x196x64.size a ≤ S8x12x196x64.size a
  broadcasts_S12x1x64_S12x196x64 : S12x1x64.Broadcasts S12x196x64
  shapeCasts_S12x196x64_S1x12x196x64 : S12x196x64.ShapeCasts S1x12x196x64
  inb_S8x12x196x64_S1x12x196x64_2_0_0_0 : ∀ a, (![2, 0, 0, 0] : Fin 4 → Nat) a + S1x12x196x64.size a ≤ S8x12x196x64.size a
  inb_S8x12x196x64_S1x12x196x64_3_0_0_0 : ∀ a, (![3, 0, 0, 0] : Fin 4 → Nat) a + S1x12x196x64.size a ≤ S8x12x196x64.size a
  inb_S8x12x196x64_S1x12x196x64_4_0_0_0 : ∀ a, (![4, 0, 0, 0] : Fin 4 → Nat) a + S1x12x196x64.size a ≤ S8x12x196x64.size a
  inb_S8x12x196x64_S1x12x196x64_5_0_0_0 : ∀ a, (![5, 0, 0, 0] : Fin 4 → Nat) a + S1x12x196x64.size a ≤ S8x12x196x64.size a
  inb_S8x12x196x64_S1x12x196x64_6_0_0_0 : ∀ a, (![6, 0, 0, 0] : Fin 4 → Nat) a + S1x12x196x64.size a ≤ S8x12x196x64.size a
  inb_S8x12x196x64_S1x12x196x64_7_0_0_0 : ∀ a, (![7, 0, 0, 0] : Fin 4 → Nat) a + S1x12x196x64.size a ≤ S8x12x196x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x12x196x64.size a ≤ S256x12x196x64.size a
  hwx0_0 : ∀ i : grid0.Coords, EltTy.bits .f32 = 32 ∨ (Rect.block (s := S256x12x196x64) S8x12x196x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x64.size a ≤ S12x64.size a
  hwx0_1 : ∀ i : grid0.Coords, EltTy.bits .f32 = 32 ∨ (Rect.block (s := S12x64) S12x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x64.size a ≤ S12x64.size a
  hwx0_2 : ∀ i : grid0.Coords, EltTy.bits .f32 = 32 ∨ (Rect.block (s := S12x64) S12x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x64.size a ≤ S12x64.size a
  hwx0_3 : ∀ i : grid0.Coords, EltTy.bits .f32 = 32 ∨ (Rect.block (s := S12x64) S12x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x12x196x64.size a ≤ S256x12x196x64.size a
  hwx0_4 : ∀ i : grid0.Coords, EltTy.bits .f32 = 32 ∨ (Rect.block (s := S256x12x196x64) S8x12x196x64.size (cc0_transform_4 i) (hinb0_4 i)).WholeWords (EltTy.packing .f32)

variable [Facts₀]

abbrev win0_0 : Pipeline.Window sig grid0 :=
  Pipeline.Window.ofSpec (Memref.whole main_arg0) S8x12x196x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S12x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S12x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_cst_1) S12x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x12x196x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x12x196x64 : Shape := ⟨4, ![256, 12, 196, 64]⟩
abbrev S32x8x12x196x64 : Shape := ⟨5, ![32, 8, 12, 196, 64]⟩
abbrev S32x8x12x64x196 : Shape := ⟨5, ![32, 8, 12, 64, 196]⟩
abbrev S32x8x768x196 : Shape := ⟨4, ![32, 8, 768, 196]⟩
abbrev S_ : Shape := ⟨0, ![]⟩
abbrev S32x1x96x196 : Shape := ⟨4, ![32, 1, 96, 196]⟩
abbrev S32x7x96x196 : Shape := ⟨4, ![32, 7, 96, 196]⟩
abbrev S32x8x96x196 : Shape := ⟨4, ![32, 8, 96, 196]⟩
abbrev S32x8x576x196 : Shape := ⟨4, ![32, 8, 576, 196]⟩

abbrev nBuf : Space → Nat
  | .hbm => 15
  | .vmem => 0
  | .smem => 0
  | _ => 0

abbrev bufTy : (tb : Table) → Fin (tcTables nBuf tb) → BufTy
  | .hbm, ⟨0, _⟩ => ⟨S256x12x196x64, .f32⟩
  | .hbm, ⟨1, _⟩ => ⟨S32x8x12x196x64, .f32⟩
  | .hbm, ⟨2, _⟩ => ⟨S32x8x12x64x196, .f32⟩
  | .hbm, ⟨3, _⟩ => ⟨S32x8x768x196, .f32⟩
  | .hbm, ⟨4, _⟩ => ⟨S_, .f32⟩
  | .hbm, ⟨5, _⟩ => ⟨S32x1x96x196, .f32⟩
  | .hbm, ⟨6, _⟩ => ⟨S32x7x96x196, .f32⟩
  | .hbm, ⟨7, _⟩ => ⟨S32x8x96x196, .f32⟩
  | .hbm, ⟨8, _⟩ => ⟨S32x7x96x196, .f32⟩
  | .hbm, ⟨9, _⟩ => ⟨S32x8x96x196, .f32⟩
  | .hbm, ⟨10, _⟩ => ⟨S32x8x576x196, .f32⟩
  | .hbm, ⟨11, _⟩ => ⟨S32x8x768x196, .f32⟩
  | .hbm, ⟨12, _⟩ => ⟨S32x8x12x64x196, .f32⟩
  | .hbm, ⟨13, _⟩ => ⟨S32x8x12x196x64, .f32⟩
  | .hbm, ⟨14, _⟩ => ⟨S256x12x196x64, .f32⟩
  | _, _ => ⟨S256x12x196x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]

class Facts₀ : Prop where
  shapeCasts_S256x12x196x64_S32x8x12x196x64 : S256x12x196x64.ShapeCasts S32x8x12x196x64
  transposes_S32x8x12x196x64_S32x8x12x64x196_0_1_2_4_3 : S32x8x12x196x64.Transposes [0, 1, 2, 4, 3] S32x8x12x64x196
  shapeCasts_S32x8x12x64x196_S32x8x768x196 : S32x8x12x64x196.ShapeCasts S32x8x768x196
  bcast_S_S32x1x96x196 : S_.BroadcastsInDim S32x1x96x196 (![] : Fin 0 → Fin S32x1x96x196.rank)
  slices_S32x8x768x196_S32x7x96x196_0_1_0_0 : S32x8x768x196.Slices ![0, 1, 0, 0] S32x7x96x196
  concatenates_S32x7x96x196_S32x1x96x196_S32x8x96x196_d1 : Shape.Concatenates [S32x7x96x196, S32x1x96x196] S32x8x96x196 1
  slices_S32x8x768x196_S32x7x96x196_0_0_96_0 : S32x8x768x196.Slices ![0, 0, 96, 0] S32x7x96x196
  concatenates_S32x1x96x196_S32x7x96x196_S32x8x96x196_d1 : Shape.Concatenates [S32x1x96x196, S32x7x96x196] S32x8x96x196 1
  slices_S32x8x768x196_S32x8x576x196_0_0_192_0 : S32x8x768x196.Slices ![0, 0, 192, 0] S32x8x576x196
  concatenates_S32x8x96x196_S32x8x96x196_S32x8x576x196_S32x8x768x196_d2 : Shape.Concatenates [S32x8x96x196, S32x8x96x196, S32x8x576x196] S32x8x768x196 2
  shapeCasts_S32x8x768x196_S32x8x12x64x196 : S32x8x768x196.ShapeCasts S32x8x12x64x196
  transposes_S32x8x12x64x196_S32x8x12x196x64_0_1_2_4_3 : S32x8x12x64x196.Transposes [0, 1, 2, 4, 3] S32x8x12x196x64
  shapeCasts_S32x8x12x196x64_S256x12x196x64 : S32x8x12x196x64.ShapeCasts S256x12x196x64

variable [Facts₀]

class Facts : Prop extends Facts₀ where

variable [Facts]
-- ==== Proof.Shift.lean ====
/-
  The temporal shift, as one function of the input array.

  The input is an array x[n, h, d, c] of extents 256 x 12 x 196 x 64. Its first axis is 32 groups of 8 consecutive
  frames; write n = 8 g + s with s the position of the frame inside its group. A head h and a channel c make the merged
  channel number k = 64 h + c (0 <= k < 768). The shifted array y is

      y[n, h, d, c] = x[n + 1, h, d, c]   if k < 96 and s < 7        (the next frame of the same group)
                      0                   if k < 96 and s = 7
                      x[n - 1, h, d, c]   if 96 <= k < 192 and s > 0 (the previous frame of the same group)
                      0                   if 96 <= k < 192 and s = 0
                      x[n, h, d, c]       if 192 <= k.

  One program computes y by cutting and joining slices of x; the other computes, for three 0/1 tables L, R, I over (h, c)
  that are the indicators of the three ranges of k, the sum  a L + b R + e I  of the next frame a, the previous frame b
  (each replaced by a zero frame at the end of a group) and the frame itself e. The two agree because exactly one of the
  three indicators is 1 at every k, and on the extended reals t * 1 = t, t * 0 = 0 and t + 0 = t for EVERY t, the two
  infinities included: no finiteness of x is needed.
-/
import Idealize.ShloMosaic.PureOps.Ideal
import Idealize.ShloMosaic.PureOps.Ideal.Laws
import Idealize.ShloMosaic.Lib.ValueIdx

noncomputable section

namespace Cert.Shift

open Idealize.ShloMosaic Idealize.ShloMosaic.ValueIdx

/-- The array's shape: 256 frames (32 groups of 8), 12 heads, 196 positions, 64 channels per head. -/
abbrev Arr : Shape := ⟨4, ![256, 12, 196, 64]⟩

/-- The shifted array at the coordinates (n, h, d, c): by the range of the merged channel number 64 h + c, the next
    frame of the group (zero after the group's last frame), the previous frame of the group (zero before its first
    frame), or the frame itself. -/
def shiftAt (x : Arr.Idx → EReal) (n : Fin 256) (h : Fin 12) (d : Fin 196) (c : Fin 64) : EReal :=
  if h.val * 64 + c.val < 96 then
    (if hn : n.val % 8 + 1 < 8 then x (ix4 ⟨n.val + 1, by have := n.isLt; omega⟩ h d c) else 0)
  else if h.val * 64 + c.val < 192 then
    (if hn : 1 ≤ n.val % 8 then x (ix4 ⟨n.val - 1, by have := n.isLt; omega⟩ h d c) else 0)
  else x (ix4 n h d c)

/-- The shifted array, index by index. -/
def shifted (x : Arr.Idx → EReal) : Arr.Idx → EReal := fun i => shiftAt x (i 0) (i 1) (i 2) (i 3)

theorem shifted_ix4 (x : Arr.Idx → EReal) (n : Fin 256) (h : Fin 12) (d : Fin 196) (c : Fin 64) :
    shifted x (ix4 n h d c) = shiftAt x n h d c := rfl

/-- Two reads of an array at coordinates with equal values are equal. -/
theorem read_congr (x : Arr.Idx → EReal) {n n' : Fin 256} {h h' : Fin 12} {d d' : Fin 196} {c c' : Fin 64}
    (hn : n.val = n'.val) (hh : h.val = h'.val) (hd : d.val = d'.val) (hc : c.val = c'.val) :
    x (ix4 n h d c) = x (ix4 n' h' d' c') := by
  obtain rfl := Fin.ext hn; obtain rfl := Fin.ext hh; obtain rfl := Fin.ext hd; obtain rfl := Fin.ext hc; rfl

/-- The three indicator tables blend three values into the one whose range holds k: exactly one indicator is 1, and
    t * 1 = t, t * 0 = 0, t + 0 = t hold for every extended real. -/
theorem blend (a b e : EReal) (k : Nat) :
    a * (if k < 96 then 1 else 0) + b * (if 96 ≤ k ∧ k < 192 then 1 else 0) + e * (if 192 ≤ k then 1 else 0)
      = if k < 96 then a else if k < 192 then b else e := by
  by_cases h1 : k < 96
  · have h2 : ¬ (96 ≤ k ∧ k < 192) := by omega
    have h3 : ¬ 192 ≤ k := by omega
    rw [if_pos h1, if_neg h2, if_neg h3, if_pos h1, mul_one, mul_zero, mul_zero, add_zero, add_zero]
  · by_cases h4 : k < 192
    · have h2 : 96 ≤ k ∧ k < 192 := by omega
      have h3 : ¬ 192 ≤ k := by omega
      rw [if_neg h1, if_pos h2, if_neg h3, if_neg h1, if_pos h4, mul_zero, mul_one, mul_zero, zero_add, add_zero]
    · have h2 : ¬ (96 ≤ k ∧ k < 192) := by omega
      have h3 : 192 ≤ k := by omega
      rw [if_neg h1, if_neg h2, if_pos h3, if_neg h1, if_neg h4, mul_zero, mul_zero, mul_one, zero_add, zero_add]

end Cert.Shift

end
-- ==== Proof.RefShift.lean ====
/-
  The reference program's result is the shifted array.

  The reference groups the 256 frames by eight ([32, 8, 12, 196, 64]), swaps the last two axes, merges head and channel
  into one axis of 768 merged channels k = 64 h + c ([32, 8, 768, 196]), and then builds three strips along the merged
  axis: channels 0..95 of frames 1..7 of every group followed by a zero frame (the next frame, zero at the group's end),
  a zero frame followed by channels 96..191 of frames 0..6 (the previous frame, zero at the group's start), and
  channels 192..767 untouched. The strips are joined along the merged axis and the three layout changes are undone.

  Each operation is read at explicit coordinates, one lemma per operation, and the composition is compared with
  `Cert.Shift.shifted` coordinate by coordinate; all the arithmetic is division and remainder by the literal extents.
-/
import proofs.«121973_j49512382988368_1_alg».proof.Proof.Gen.ReferenceIdeal.Read
import proofs.«121973_j49512382988368_1_alg».proof.Proof.Shift
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

variable (x : (⟨S256x12x196x64, .f32⟩ : BufTy).Contents (Elt Ideal))

/-- Two reads of the array at coordinates with equal values are equal. -/
theorem read_congr {n n' : Fin 256} {h h' : Fin 12} {d d' : Fin 196} {c c' : Fin 64}
    (hn : n.val = n'.val) (hh : h.val = h'.val) (hd : d.val = d'.val) (hc : c.val = c'.val) :
    x (ix4 n h d c) = x (ix4 n' h' d' c') := by
  obtain rfl := Fin.ext hn; obtain rfl := Fin.ext hh; obtain rfl := Fin.ext hd; obtain rfl := Fin.ext hc; rfl

/-- Frames grouped by eight: frame t of group b is frame 8 b + t. -/
theorem groups_at (b : Fin 32) (t : Fin 8) (h : Fin 12) (d : Fin 196) (c : Fin 64) :
    val_main_v0 (F := Ideal) x (ix5 b t h d c)
      = x (ix4 ⟨b.val * 8 + t.val, by have := b.isLt; have := t.isLt; omega⟩ h d c) := by
  have hb := b.isLt; have ht := t.isLt; have hh := h.isLt; have hd := d.isLt; have hc := c.isLt
  rw [val_main_v0_apply]
  refine congrArg x (funext fun a => Fin.ext ?_)
  match a with
  | ⟨0, _⟩ => show ((((b.val * 8 + t.val) * 12 + h.val) * 196 + d.val) * 64 + c.val) / 150528 = b.val * 8 + t.val; omega
  | ⟨1, _⟩ => show ((((b.val * 8 + t.val) * 12 + h.val) * 196 + d.val) * 64 + c.val) / 12544 % 12 = h.val; omega
  | ⟨2, _⟩ => show ((((b.val * 8 + t.val) * 12 + h.val) * 196 + d.val) * 64 + c.val) / 64 % 196 = d.val; omega
  | ⟨3, _⟩ => show ((((b.val * 8 + t.val) * 12 + h.val) * 196 + d.val) * 64 + c.val) % 64 = c.val; omega

/-- The last two axes swapped. -/
theorem swapped_at (b : Fin 32) (t : Fin 8) (h : Fin 12) (c : Fin 64) (d : Fin 196) :
    val_main_v1 (F := Ideal) x (ix5 b t h c d) = val_main_v0 (F := Ideal) x (ix5 b t h d c) := by
  rw [val_main_v1_apply]
  refine congrArg (val_main_v0 (F := Ideal) x) (funext fun a => ?_)
  match a with
  | ⟨0, _⟩ => rfl
  | ⟨1, _⟩ => rfl
  | ⟨2, _⟩ => rfl
  | ⟨3, _⟩ => rfl
  | ⟨4, _⟩ => rfl

/-- Head and channel merged: merged channel k is channel k mod 64 of head k / 64. -/
theorem merged_at (b : Fin 32) (t : Fin 8) (k : Fin 768) (d : Fin 196) :
    val_main_v2 (F := Ideal) x (ix4 b t k d)
      = x (ix4 ⟨b.val * 8 + t.val, by have := b.isLt; have := t.isLt; omega⟩ ⟨k.val / 64, by have := k.isLt; omega⟩ d
          ⟨k.val % 64, by omega⟩) := by
  have hb := b.isLt; have ht := t.isLt; have hk := k.isLt; have hd := d.isLt
  rw [val_main_v2_apply, ← groups_at x b t ⟨k.val / 64, by omega⟩ d ⟨k.val % 64, by omega⟩,
    ← swapped_at x b t ⟨k.val / 64, by omega⟩ ⟨k.val % 64, by omega⟩ d]
  refine congrArg (val_main_v1 (F := Ideal) x) (funext fun a => Fin.ext ?_)
  match a with
  | ⟨0, _⟩ => show (((b.val * 8 + t.val) * 768 + k.val) * 196 + d.val) / 1204224 = b.val; omega
  | ⟨1, _⟩ => show (((b.val * 8 + t.val) * 768 + k.val) * 196 + d.val) / 150528 % 8 = t.val; omega
  | ⟨2, _⟩ => show (((b.val * 8 + t.val) * 768 + k.val) * 196 + d.val) / 12544 % 12 = k.val / 64; omega
  | ⟨3, _⟩ => show (((b.val * 8 + t.val) * 768 + k.val) * 196 + d.val) / 196 % 64 = k.val % 64; omega
  | ⟨4, _⟩ => show (((b.val * 8 + t.val) * 768 + k.val) * 196 + d.val) % 196 = d.val; omega

/-- The padding frame is zero everywhere. -/
theorem pad_at (i : S32x1x96x196.Idx) : val_main_v3 (F := Ideal) i = 0 := by
  rw [val_main_v3_apply, val_main_cst_apply]
  exact Ideal.ofBits_zero_f32

/-- Channels 0..95 of frames 1..7 of every group. -/
theorem later_at (b : Fin 32) (t : Fin 7) (k : Fin 96) (d : Fin 196) :
    val_main_v4 (F := Ideal) x (ix4 b t k d)
      = val_main_v2 (F := Ideal) x (ix4 b ⟨1 + t.val, by omega⟩ ⟨k.val, by omega⟩ d) := by
  rw [val_main_v4_apply]
  refine congrArg (val_main_v2 (F := Ideal) x) (funext fun a => ?_)
  match a with
  | ⟨0, _⟩ => rfl
  | ⟨1, _⟩ => rfl
  | ⟨2, _⟩ => rfl
  | ⟨3, _⟩ => rfl

/-- Channels 96..191 of frames 0..6 of every group. -/
theorem earlier_at (b : Fin 32) (t : Fin 7) (k : Fin 96) (d : Fin 196) :
    val_main_v6 (F := Ideal) x (ix4 b t k d)
      = val_main_v2 (F := Ideal) x (ix4 b ⟨t.val, by omega⟩ ⟨96 + k.val, by omega⟩ d) := by
  rw [val_main_v6_apply]
  refine congrArg (val_main_v2 (F := Ideal) x) (funext fun a => ?_)
  match a with
  | ⟨0, _⟩ => rfl
  | ⟨1, _⟩ => rfl
  | ⟨2, _⟩ => rfl
  | ⟨3, _⟩ => rfl

/-- Channels 192..767 of every frame. -/
theorem rest_at (b : Fin 32) (t : Fin 8) (k : Fin 576) (d : Fin 196) :
    val_main_v8 (F := Ideal) x (ix4 b t k d)
      = val_main_v2 (F := Ideal) x (ix4 b t ⟨192 + k.val, by omega⟩ d) := by
  rw [val_main_v8_apply]
  refine congrArg (val_main_v2 (F := Ideal) x) (funext fun a => ?_)
  match a with
  | ⟨0, _⟩ => rfl
  | ⟨1, _⟩ => rfl
  | ⟨2, _⟩ => rfl
  | ⟨3, _⟩ => rfl

/-- The first strip: the next frame of the group, zero after its last frame. -/
theorem next_at (b : Fin 32) (t : Fin 8) (k : Fin 96) (d : Fin 196) :
    val_main_v5 (F := Ideal) x (ix4 b t k d)
      = if ht : t.val < 7 then val_main_v2 (F := Ideal) x (ix4 b ⟨1 + t.val, by omega⟩ ⟨k.val, by omega⟩ d) else 0 := by
  unfold val_main_v5
  by_cases ht : t.val < 7
  · rw [dif_pos ht, ← later_at x b ⟨t.val, ht⟩ k d]
    exact concatenate_pair_apply_left (t := S32x8x96x196) (s₁ := S32x7x96x196) (s₂ := S32x1x96x196) _ _ _ _ (ix4 b t k d) rfl
      (ix4 b (⟨t.val, ht⟩ : Fin 7) k d) (fun a => match a with
      | ⟨0, _⟩ => rfl
      | ⟨1, _⟩ => rfl
      | ⟨2, _⟩ => rfl
      | ⟨3, _⟩ => rfl)
  · rw [dif_neg ht, ← pad_at (ix4 b (0 : Fin 1) k d)]
    exact concatenate_pair_apply_right (t := S32x8x96x196) (s₁ := S32x7x96x196) (s₂ := S32x1x96x196) _ _ _ _ (ix4 b t k d) rfl rfl
      (ix4 b (0 : Fin 1) k d) (fun a => match a with
      | ⟨0, _⟩ => fun _ => rfl
      | ⟨1, _⟩ => fun hne => absurd rfl hne
      | ⟨2, _⟩ => fun _ => rfl
      | ⟨3, _⟩ => fun _ => rfl) (by have := t.isLt; show 0 + 7 = t.val; omega)

/-- The second strip: the previous frame of the group, zero before its first frame. -/
theorem prev_at (b : Fin 32) (t : Fin 8) (k : Fin 96) (d : Fin 196) :
    val_main_v7 (F := Ideal) x (ix4 b t k d)
      = if ht : 1 ≤ t.val then val_main_v2 (F := Ideal) x (ix4 b ⟨t.val - 1, by have := t.isLt; omega⟩ ⟨96 + k.val, by omega⟩ d) else 0 := by
  unfold val_main_v7
  have htl := t.isLt
  by_cases ht : 1 ≤ t.val
  · rw [dif_pos ht]
    have e := earlier_at x b ⟨t.val - 1, by omega⟩ k d
    rw [← e]
    exact concatenate_pair_apply_right (t := S32x8x96x196) (s₁ := S32x1x96x196) (s₂ := S32x7x96x196) _ _ _ _ (ix4 b t k d) rfl rfl
      (ix4 b (⟨t.val - 1, by omega⟩ : Fin 7) k d) (fun a => match a with
      | ⟨0, _⟩ => fun _ => rfl
      | ⟨1, _⟩ => fun hne => absurd rfl hne
      | ⟨2, _⟩ => fun _ => rfl
      | ⟨3, _⟩ => fun _ => rfl) (by show t.val - 1 + 1 = t.val; omega)
  · rw [dif_neg ht, ← pad_at (ix4 b (0 : Fin 1) k d)]
    exact concatenate_pair_apply_left (t := S32x8x96x196) (s₁ := S32x1x96x196) (s₂ := S32x7x96x196) _ _ _ _ (ix4 b t k d) rfl
      (ix4 b (0 : Fin 1) k d) (fun a => match a with
      | ⟨0, _⟩ => rfl
      | ⟨1, _⟩ => by show 0 = t.val; omega
      | ⟨2, _⟩ => rfl
      | ⟨3, _⟩ => rfl)

/-- The three strips joined along the merged axis: merged channel k lies in the strip its range names. -/
theorem strips_at (b : Fin 32) (t : Fin 8) (k : Fin 768) (d : Fin 196) :
    val_main_v9 (F := Ideal) x (ix4 b t k d)
      = if h1 : k.val < 96 then val_main_v5 (F := Ideal) x (ix4 b t ⟨k.val, h1⟩ d)
        else if h2 : k.val < 192 then val_main_v7 (F := Ideal) x (ix4 b t ⟨k.val - 96, by omega⟩ d)
        else val_main_v8 (F := Ideal) x (ix4 b t ⟨k.val - 192, by have := k.isLt; omega⟩ d) := by
  unfold val_main_v9
  have hk := k.isLt
  by_cases h1 : k.val < 96
  · rw [dif_pos h1]
    exact concatenate_apply_piece (t := S32x8x768x196) _ _ _ (ix4 b t k d) 0 (by show (0 : Nat) < 3; omega) S32x8x96x196
      (val_main_v5 (F := Ideal) x) rfl rfl 0 rfl (ix4 b t (⟨k.val, h1⟩ : Fin 96) d) (fun a => match a with
        | ⟨0, _⟩ => fun _ => rfl
        | ⟨1, _⟩ => fun _ => rfl
        | ⟨2, _⟩ => fun hne => absurd rfl hne
        | ⟨3, _⟩ => fun _ => rfl) (by show 0 + k.val = k.val; omega)
  · rw [dif_neg h1]
    by_cases h2 : k.val < 192
    · rw [dif_pos h2]
      exact concatenate_apply_piece (t := S32x8x768x196) _ _ _ (ix4 b t k d) 1 (by show (1 : Nat) < 3; omega) S32x8x96x196
        (val_main_v7 (F := Ideal) x) rfl rfl 96 rfl (ix4 b t (⟨k.val - 96, by omega⟩ : Fin 96) d) (fun a => match a with
          | ⟨0, _⟩ => fun _ => rfl
          | ⟨1, _⟩ => fun _ => rfl
          | ⟨2, _⟩ => fun hne => absurd rfl hne
          | ⟨3, _⟩ => fun _ => rfl) (by show 96 + (k.val - 96) = k.val; omega)
    · rw [dif_neg h2]
      exact concatenate_apply_piece (t := S32x8x768x196) _ _ _ (ix4 b t k d) 2 (by show (2 : Nat) < 3; omega) S32x8x576x196
        (val_main_v8 (F := Ideal) x) rfl rfl 192 rfl (ix4 b t (⟨k.val - 192, by omega⟩ : Fin 576) d) (fun a => match a with
          | ⟨0, _⟩ => fun _ => rfl
          | ⟨1, _⟩ => fun _ => rfl
          | ⟨2, _⟩ => fun hne => absurd rfl hne
          | ⟨3, _⟩ => fun _ => rfl) (by show 192 + (k.val - 192) = k.val; omega)

/-- The merged axis split back: channel c of head h is merged channel 64 h + c. -/
theorem unmerged_at (b : Fin 32) (t : Fin 8) (h : Fin 12) (c : Fin 64) (d : Fin 196) :
    val_main_v10 (F := Ideal) x (ix5 b t h c d)
      = val_main_v9 (F := Ideal) x (ix4 b t ⟨h.val * 64 + c.val, by have := h.isLt; have := c.isLt; omega⟩ d) := by
  have hb := b.isLt; have ht := t.isLt; have hh := h.isLt; have hc := c.isLt; have hd := d.isLt
  rw [val_main_v10_apply]
  refine congrArg (val_main_v9 (F := Ideal) x) (funext fun a => Fin.ext ?_)
  match a with
  | ⟨0, _⟩ => show ((((b.val * 8 + t.val) * 12 + h.val) * 64 + c.val) * 196 + d.val) / 1204224 = b.val; omega
  | ⟨1, _⟩ => show ((((b.val * 8 + t.val) * 12 + h.val) * 64 + c.val) * 196 + d.val) / 150528 % 8 = t.val; omega
  | ⟨2, _⟩ => show ((((b.val * 8 + t.val) * 12 + h.val) * 64 + c.val) * 196 + d.val) / 196 % 768 = h.val * 64 + c.val; omega
  | ⟨3, _⟩ => show ((((b.val * 8 + t.val) * 12 + h.val) * 64 + c.val) * 196 + d.val) % 196 = d.val; omega

/-- The last two axes swapped back. -/
theorem unswapped_at (b : Fin 32) (t : Fin 8) (h : Fin 12) (d : Fin 196) (c : Fin 64) :
    val_main_v11 (F := Ideal) x (ix5 b t h d c) = val_main_v10 (F := Ideal) x (ix5 b t h c d) := by
  rw [val_main_v11_apply]
  refine congrArg (val_main_v10 (F := Ideal) x) (funext fun a => ?_)
  match a with
  | ⟨0, _⟩ => rfl
  | ⟨1, _⟩ => rfl
  | ⟨2, _⟩ => rfl
  | ⟨3, _⟩ => rfl
  | ⟨4, _⟩ => rfl

/-- The groups flattened back: frame n is frame n mod 8 of group n / 8. -/
theorem ungrouped_at (n : Fin 256) (h : Fin 12) (d : Fin 196) (c : Fin 64) :
    val_main_v12 (F := Ideal) x (ix4 n h d c)
      = val_main_v11 (F := Ideal) x (ix5 ⟨n.val / 8, by have := n.isLt; omega⟩ ⟨n.val % 8, by omega⟩ h d c) := by
  have hn := n.isLt; have hh := h.isLt; have hd := d.isLt; have hc := c.isLt
  rw [val_main_v12_apply]
  refine congrArg (val_main_v11 (F := Ideal) x) (funext fun a => Fin.ext ?_)
  match a with
  | ⟨0, _⟩ => show (((n.val * 12 + h.val) * 196 + d.val) * 64 + c.val) / 1204224 = n.val / 8; omega
  | ⟨1, _⟩ => show (((n.val * 12 + h.val) * 196 + d.val) * 64 + c.val) / 150528 % 8 = n.val % 8; omega
  | ⟨2, _⟩ => show (((n.val * 12 + h.val) * 196 + d.val) * 64 + c.val) / 12544 % 12 = h.val; omega
  | ⟨3, _⟩ => show (((n.val * 12 + h.val) * 196 + d.val) * 64 + c.val) / 64 % 196 = d.val; omega
  | ⟨4, _⟩ => show (((n.val * 12 + h.val) * 196 + d.val) * 64 + c.val) % 64 = c.val; omega

/-- The reference's result is the shifted array: at (n, h, d, c), with n = 8 g + s and k = 64 h + c, the strip that
    holds k decides between frame n + 1 (zero when s = 7), frame n - 1 (zero when s = 0) and frame n; and k / 64 = h,
    k mod 64 = c, 8 g + s = n give back the coordinates. -/
theorem result_eq : val_main_v12 (F := Ideal) x = Cert.Shift.shifted x := by
  funext i
  obtain ⟨n, h, d, c, rfl⟩ : ∃ (n : Fin 256) (h : Fin 12) (d : Fin 196) (c : Fin 64), i = ix4 n h d c :=
    ⟨i 0, i 1, i 2, i 3, eq_ix4 i⟩
  have hn := n.isLt; have hh := h.isLt; have hd := d.isLt; have hc := c.isLt
  rw [Cert.Shift.shifted_ix4, ungrouped_at, unswapped_at, unmerged_at, strips_at]
  unfold Cert.Shift.shiftAt
  by_cases h1 : h.val * 64 + c.val < 96
  · rw [dif_pos h1, if_pos h1, next_at]
    by_cases h2 : n.val % 8 < 7
    · rw [dif_pos h2, dif_pos (by omega), merged_at]
      exact read_congr x (by show n.val / 8 * 8 + (1 + n.val % 8) = n.val + 1; omega)
        (by show (h.val * 64 + c.val) / 64 = h.val; omega) rfl (by show (h.val * 64 + c.val) % 64 = c.val; omega)
    · rw [dif_neg h2, dif_neg (by omega)]
  · rw [dif_neg h1, if_neg h1]
    by_cases h3 : h.val * 64 + c.val < 192
    · rw [dif_pos h3, if_pos h3, prev_at]
      by_cases h4 : 1 ≤ n.val % 8
      · rw [dif_pos h4, dif_pos h4, merged_at]
        exact read_congr x (by show n.val / 8 * 8 + (n.val % 8 - 1) = n.val - 1; omega)
          (by show (96 + (h.val * 64 + c.val - 96)) / 64 = h.val; omega) rfl
          (by show (96 + (h.val * 64 + c.val - 96)) % 64 = c.val; omega)
      · rw [dif_neg h4, dif_neg h4]
    · rw [dif_neg h3, if_neg h3, rest_at, merged_at]
      exact read_congr x (by show n.val / 8 * 8 + n.val % 8 = n.val; omega)
        (by show (192 + (h.val * 64 + c.val - 192)) / 64 = h.val; omega) rfl
        (by show (192 + (h.val * 64 + c.val - 192)) % 64 = c.val; omega)

end Cert.ReferenceIdeal.RefValue

end
-- ==== Proof.LibMaskWords.lean ====
/-
  Float words of a 0/1 table, read on the extended reals.

  A constant table of the 32-bit float words 1.0 (0x3F800000) and 0.0 (0x00000000) is an indicator function once its
  words are read as extended reals: the word 1.0 denotes 1 and the word 0.0 denotes 0, so a word chosen by a condition
  denotes the indicator of that condition. With t * 1 = t, t * 0 = 0 and t + 0 = t for EVERY extended real t, a product
  with such a table selects or drops a value without any finiteness assumption.
-/
import Idealize.ShloMosaic.PureOps.Ideal
import Idealize.ShloMosaic.PureOps.Ideal.Laws

noncomputable section

namespace Cert.Lib.MaskWords

open Idealize.ShloMosaic

/-- The 32-bit pattern of the float 1.0 denotes the extended real 1. -/
theorem one_f32 : Ideal.ofBits .f32 0x3F800000#32 = 1 := by
  simp [Ideal.ofBits, Ideal.ieee, -EReal.coe_mul]; norm_num

/-- A word that is 1.0 or 0.0 by a condition denotes 1 or 0 by that condition. -/
theorem ite_word_f32 (p : Prop) [Decidable p] :
    Ideal.ofBits .f32 (if p then 0x3F800000#32 else 0x00000000#32) = if p then (1 : EReal) else 0 := by
  by_cases hp : p
  · rw [if_pos hp, if_pos hp]; exact one_f32
  · rw [if_neg hp, if_neg hp]; exact Ideal.ofBits_zero_f32

/-- A value times the indicator of a condition is the value where the condition holds and 0 elsewhere, for every
    extended real. -/
theorem mul_ite_one_zero (t : EReal) (p : Prop) [Decidable p] :
    t * (if p then (1 : EReal) else 0) = if p then t else 0 := by
  by_cases hp : p
  · rw [if_pos hp, if_pos hp, mul_one]
  · rw [if_neg hp, if_neg hp, mul_zero]

end Cert.Lib.MaskWords

end
-- ==== Proof.MaskTables.lean ====
/-
  The three indicator tables of the kernel.

  The kernel's host code passes three constant [12, 64] arrays of the words 1.0 and 0.0 to the region. Read row-major,
  entry k = 64 h + c of the first is 1 exactly when k < 96, of the second exactly when 96 <= k < 192, of the third
  exactly when 192 <= k: the indicators of the three ranges of the merged channel number. The pattern of each table is
  a finite fact about its 768 words; each array as the region finds it is its table read row-major, and the words 1.0
  and 0.0 denote the extended reals 1 and 0.
-/
import proofs.«121973_j49512382988368_1_alg».proof.Proof.Gen.KernelIdeal.Frame
import proofs.«121973_j49512382988368_1_alg».proof.Proof.LibMaskWords
import Idealize.ShloMosaic.Lib.ValueIdx
import Idealize.ShloMosaic.Lib.Pipeline.Value
import Idealize.ShloMosaic.PureOps.Ideal.Laws

noncomputable section

namespace Cert.KernelIdeal.Masks

open Cert.KernelIdeal Cert.KernelIdeal.Gen Idealize.ShloMosaic Idealize.ShloMosaic.TcCoe Idealize.SL.Sem
open Idealize.ShloMosaic.ValueIdx

/-- The first table: 1.0 on the merged channels below 96. -/
theorem table_next : ∀ k : Fin 768, lit0 k = if k.val < 96 then 0x3F800000#32 else 0x00000000#32 := by
  decide +kernel

/-- The second table: 1.0 on the merged channels 96 to 191. -/
theorem table_prev : ∀ k : Fin 768, lit1 k = if 96 ≤ k.val ∧ k.val < 192 then 0x3F800000#32 else 0x00000000#32 := by
  decide +kernel

/-- The third table: 1.0 on the merged channels from 192 on. -/
theorem table_same : ∀ k : Fin 768, lit2 k = if 192 ≤ k.val then 0x3F800000#32 else 0x00000000#32 := by
  decide +kernel

/-- The row-major position of (h, c) in a [12, 64] array is 64 h + c. -/
theorem pos_at (h : Fin 12) (c : Fin 64) : (S12x64.rowMajor (ix2 h c)).val = h.val * 64 + c.val :=
  Shape.rowMajor_val_two (d := ![12, 64]) (ix2 h c)

/-- The first table's word at position p denotes the indicator of p < 96. -/
theorem next_word (k : Fin 768) (p : Nat) (hp : k.val = p) :
    Ideal.ofBits .f32 (lit0 k) = if p < 96 then (1 : EReal) else 0 := by
  subst hp; rw [table_next, Cert.Lib.MaskWords.ite_word_f32]

/-- The second table's word at position p denotes the indicator of 96 <= p < 192. -/
theorem prev_word (k : Fin 768) (p : Nat) (hp : k.val = p) :
    Ideal.ofBits .f32 (lit1 k) = if 96 ≤ p ∧ p < 192 then (1 : EReal) else 0 := by
  subst hp; rw [table_prev, Cert.Lib.MaskWords.ite_word_f32]

/-- The third table's word at position p denotes the indicator of 192 <= p. -/
theorem same_word (k : Fin 768) (p : Nat) (hp : k.val = p) :
    Ideal.ofBits .f32 (lit2 k) = if 192 ≤ p then (1 : EReal) else 0 := by
  subst hp; rw [table_same, Cert.Lib.MaskWords.ite_word_f32]

variable (m : (ℓ : Loc nD τ sig) → Buf (Elt Ideal) ℓ)

/-- The first mask array as the region finds it, at (h, c): the indicator of 64 h + c < 96. -/
theorem next_at (cd : Dev nD) (h : Fin 12) (c : Fin 64) :
    (V m cd main_cst : S12x64.Idx → EReal) (ix2 h c) = if h.val * 64 + c.val < 96 then (1 : EReal) else 0 := by
  have e : (V m cd main_cst : S12x64.Idx → EReal) = fun i => Ideal.ofBits .f32 (lit0 (S12x64.rowMajor i)) := by
    dsimp only [V, hostOps0]; after_results; rfl
  rw [e]
  exact next_word (S12x64.rowMajor (ix2 h c)) (h.val * 64 + c.val) (pos_at h c)

/-- The second mask array as the region finds it, at (h, c): the indicator of 96 <= 64 h + c < 192. -/
theorem prev_at (cd : Dev nD) (h : Fin 12) (c : Fin 64) :
    (V m cd main_cst_0 : S12x64.Idx → EReal) (ix2 h c)
      = if 96 ≤ h.val * 64 + c.val ∧ h.val * 64 + c.val < 192 then (1 : EReal) else 0 := by
  have e : (V m cd main_cst_0 : S12x64.Idx → EReal) = fun i => Ideal.ofBits .f32 (lit1 (S12x64.rowMajor i)) := by
    dsimp only [V, hostOps0]; after_results; rfl
  rw [e]
  exact prev_word (S12x64.rowMajor (ix2 h c)) (h.val * 64 + c.val) (pos_at h c)

/-- The third mask array as the region finds it, at (h, c): the indicator of 192 <= 64 h + c. -/
theorem same_at (cd : Dev nD) (h : Fin 12) (c : Fin 64) :
    (V m cd main_cst_1 : S12x64.Idx → EReal) (ix2 h c) = if 192 ≤ h.val * 64 + c.val then (1 : EReal) else 0 := by
  have e : (V m cd main_cst_1 : S12x64.Idx → EReal) = fun i => Ideal.ofBits .f32 (lit2 (S12x64.rowMajor i)) := by
    dsimp only [V, hostOps0]; after_results; rfl
  rw [e]
  exact same_word (S12x64.rowMajor (ix2 h c)) (h.val * 64 + c.val) (pos_at h c)

end Cert.KernelIdeal.Masks

end
-- ==== Proof.GroupBlock.lean ====
/-
  One group of eight frames, as the kernel's body leaves it.

  At a grid point the body holds one group X[s, h, d, c] (s = 0..7 the position in the group) and the three mask arrays
  ML, MR, MI over (h, c). It stores eight frames, one per position s: the frame after s times ML, plus the frame before s
  times MR, plus frame s times MI, each mask first given a unit middle axis and then repeated along the 196 positions; at
  s = 7 the frame after, and at s = 0 the frame before, is a frame of zeros. So at (s, h, d, c) the block holds

      next * ML[h, c] + prev * MR[h, c] + X[s, h, d, c] * MI[h, c],
      next = X[s + 1, h, d, c] (0 when s = 7),  prev = X[s - 1, h, d, c] (0 when s = 0).

  The eight stores tile the block, one frame each, so the block is this one function of X and the masks.
-/
import proofs.«121973_j49512382988368_1_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Group

open Cert.KernelIdeal Cert.KernelIdeal.Gen Idealize.ShloMosaic Idealize.ShloMosaic.TcCoe Idealize.SL.Sem
open Idealize.ShloMosaic.ValueIdx

/-- One stored frame: three frames blended by three masks over (head, channel), each mask repeated along the positions. -/
def blendRow (L R I : FVec Ideal S12x196x64 .f32) (ml mr mi : FVec Ideal S12x1x64 .f32) : FVec Ideal S1x12x196x64 .f32 :=
  shapeCast S1x12x196x64
    (addf (addf (mulf L (broadcastTo S12x196x64 ml broadcasts_S12x1x64_S12x196x64))
                (mulf R (broadcastTo S12x196x64 mr broadcasts_S12x1x64_S12x196x64)))
          (mulf I (broadcastTo S12x196x64 mi broadcasts_S12x1x64_S12x196x64)))
    shapeCasts_S12x196x64_S1x12x196x64

/-- A mask with a unit middle axis, repeated along the positions, at (h, d, c) is the mask at (h, 0, c). -/
theorem repeat_at (v : FVec Ideal S12x1x64 .f32) (h : Fin 12) (d : Fin 196) (c : Fin 64) :
    broadcastTo S12x196x64 v broadcasts_S12x1x64_S12x196x64 (ix3 h d c) = v (ix3 h (0 : Fin 1) c) :=
  broadcastTo_apply v broadcasts_S12x1x64_S12x196x64 (ix3 h d c) (ix3 h (0 : Fin 1) c) (fun a => match a with
    | ⟨0, _⟩ => rfl
    | ⟨1, _⟩ => rfl
    | ⟨2, _⟩ => rfl)

/-- The stored frame at (h, d, c): the three frames there, each times its mask at (h, c). -/
theorem blendRow_at (L R I : FVec Ideal S12x196x64 .f32) (ml mr mi : FVec Ideal S12x1x64 .f32)
    (u : Fin 1) (h : Fin 12) (d : Fin 196) (c : Fin 64) :
    blendRow L R I ml mr mi (ix4 u h d c)
      = L (ix3 h d c) * ml (ix3 h (0 : Fin 1) c) + R (ix3 h d c) * mr (ix3 h (0 : Fin 1) c)
        + I (ix3 h d c) * mi (ix3 h (0 : Fin 1) c) := by
  unfold blendRow
  refine (shapeCast_addUnit_apply (d := ![12, 196, 64]) _ shapeCasts_S12x196x64_S1x12x196x64 (ix4 u h d c)).trans ?_
  have hj : (fun a : Fin 3 => (ix4 u h d c : S1x12x196x64.Idx) a.succ) = ix3 h d c :=
    funext fun a => match a with
      | ⟨0, _⟩ => rfl
      | ⟨1, _⟩ => rfl
      | ⟨2, _⟩ => rfl
  rw [hj]
  show L (ix3 h d c) * broadcastTo S12x196x64 ml broadcasts_S12x1x64_S12x196x64 (ix3 h d c)
      + R (ix3 h d c) * broadcastTo S12x196x64 mr broadcasts_S12x1x64_S12x196x64 (ix3 h d c)
      + I (ix3 h d c) * broadcastTo S12x196x64 mi broadcasts_S12x1x64_S12x196x64 (ix3 h d c) = _
  rw [repeat_at, repeat_at, repeat_at]

/-- A mask over (h, c) given a unit middle axis, at (h, 0, c), is the mask at (h, c). -/
theorem middle_at (v : Vec Ideal S12x64 .f32) (h : Fin 12) (u : Fin 1) (c : Fin 64) :
    shapeCast S12x1x64 v shapeCasts_S12x64_S12x1x64 (ix3 h u c) = v (ix2 h c) :=
  shapeCast_apply v shapeCasts_S12x64_S12x1x64 (ix3 h u c) (ix2 h c) (by
    rw [Shape.rowMajor_val_two, Shape.rowMajor_val_three]
    show h.val * 64 + c.val = (h.val * 1 + u.val) * 64 + c.val
    have := u.isLt; omega)

/-- Frame s of the group, loaded as a one-frame tile and stripped of its unit axis, at (h, d, c). -/
theorem frame_at (X : Vec Ideal S8x12x196x64 .f32) (off : Fin 4 → Nat)
    (inb : ∀ a, off a + S1x12x196x64.size a ≤ S8x12x196x64.size a) (s : Fin 8)
    (h0 : off 0 = s.val) (h1 : off 1 = 0) (h2 : off 2 = 0) (h3 : off 3 = 0) (h : Fin 12) (d : Fin 196) (c : Fin 64) :
    shapeCast S12x196x64 (View.ld X (Rect.unit (s := S8x12x196x64) off S1x12x196x64.size inb))
        shapeCasts_S1x12x196x64_S12x196x64 (ix3 h d c) = X (ix4 s h d c) := by
  refine (shapeCast_dropUnit_apply (d := ![12, 196, 64]) _ shapeCasts_S1x12x196x64_S12x196x64 (ix3 h d c)).trans ?_
  show X ((Rect.unit (s := S8x12x196x64) off S1x12x196x64.size inb).idx _) = _
  refine congrArg X (funext fun a => Fin.ext ?_)
  match a with
  | ⟨0, _⟩ => show off 0 + 1 * 0 = s.val; omega
  | ⟨1, _⟩ => show off 1 + 1 * h.val = h.val; omega
  | ⟨2, _⟩ => show off 2 + 1 * d.val = d.val; omega
  | ⟨3, _⟩ => show off 3 + 1 * c.val = c.val; omega

/-- The frame of zeros. -/
theorem zeros_at (h : Fin 12) (d : Fin 196) (c : Fin 64) : k0_pay6 (F := Ideal) (ix3 h d c) = 0 := by
  show Ideal.ofBits .f32 0x00000000#32 = 0
  exact Ideal.ofBits_zero_f32

/-- The group's block at the coordinates (s, h, d, c). -/
def groupAt (X : Vec Ideal S8x12x196x64 .f32) (ML MR MI : Vec Ideal S12x64 .f32)
    (s : Fin 8) (h : Fin 12) (d : Fin 196) (c : Fin 64) : EReal :=
  (if hs : s.val + 1 < 8 then X (ix4 ⟨s.val + 1, hs⟩ h d c) else 0) * ML (ix2 h c)
    + (if hs : 1 ≤ s.val then X (ix4 ⟨s.val - 1, by have := s.isLt; omega⟩ h d c) else 0) * MR (ix2 h c)
    + X (ix4 s h d c) * MI (ix2 h c)

/-- The group's block, index by index. -/
def group (X : Vec Ideal S8x12x196x64 .f32) (ML MR MI : Vec Ideal S12x64 .f32) : S8x12x196x64.Idx → EReal :=
  fun y => groupAt X ML MR MI (y 0) (y 1) (y 2) (y 3)

/-- One tile: the frame stored at position s — the blend of a frame L that is the frame after s (zeros when there is
    none), a frame R that is the frame before s (zeros when there is none) and frame s itself — is the group's block on
    the tile of position s. -/
theorem tile_at (X : Vec Ideal S8x12x196x64 .f32) (ML MR MI : Vec Ideal S12x64 .f32) (off : Fin 4 → Nat)
    (inb : ∀ a, off a + S1x12x196x64.size a ≤ S8x12x196x64.size a) (s : Fin 8)
    (h0 : off 0 = s.val) (h1 : off 1 = 0) (h2 : off 2 = 0) (h3 : off 3 = 0)
    (L R I : FVec Ideal S12x196x64 .f32)
    (hL : ∀ (h : Fin 12) (d : Fin 196) (c : Fin 64),
      L (ix3 h d c) = if hs : s.val + 1 < 8 then X (ix4 ⟨s.val + 1, hs⟩ h d c) else 0)
    (hR : ∀ (h : Fin 12) (d : Fin 196) (c : Fin 64),
      R (ix3 h d c) = if hs : 1 ≤ s.val then X (ix4 ⟨s.val - 1, by have := s.isLt; omega⟩ h d c) else 0)
    (hI : ∀ (h : Fin 12) (d : Fin 196) (c : Fin 64), I (ix3 h d c) = X (ix4 s h d c))
    (z : S1x12x196x64.Idx) :
    blendRow L R I (shapeCast S12x1x64 ML shapeCasts_S12x64_S12x1x64) (shapeCast S12x1x64 MR shapeCasts_S12x64_S12x1x64)
        (shapeCast S12x1x64 MI shapeCasts_S12x64_S12x1x64) z
      = group X ML MR MI ((Rect.unit (s := S8x12x196x64) off S1x12x196x64.size inb).emb z) := by
  obtain ⟨u, h, d, c, rfl⟩ : ∃ (u : Fin 1) (h : Fin 12) (d : Fin 196) (c : Fin 64), z = ix4 u h d c :=
    ⟨z 0, z 1, z 2, z 3, eq_ix4 z⟩
  have e : (Rect.unit (s := S8x12x196x64) off S1x12x196x64.size inb).emb (ix4 u h d c) = ix4 s h d c :=
    funext fun a => Fin.ext (by
      have hu := u.isLt
      match a with
      | ⟨0, _⟩ => show off 0 + 1 * u.val = s.val; omega
      | ⟨1, _⟩ => show off 1 + 1 * h.val = h.val; omega
      | ⟨2, _⟩ => show off 2 + 1 * d.val = d.val; omega
      | ⟨3, _⟩ => show off 3 + 1 * c.val = c.val; omega)
  rw [e, blendRow_at, hL, hR, hI, middle_at, middle_at, middle_at]
  rfl

theorem zero2 : (![0, 0] : Fin 2 → Nat) = fun _ => 0 := funext fun a => by fin_cases a <;> rfl

/-- What the body leaves in the output's block is the group's block: each of the eight stored frames is the blend of
    its neighbours and itself, and the eight tiles cover the block. -/
theorem out_eq (x0 : Vec Ideal S8x12x196x64 .f32) (x1 x2 x3 : Vec Ideal S12x64 .f32) :
    out0_4 (F := Ideal) x0 x1 x2 x3 = group x0 x1 x2 x3 := by
  funext y
  unfold out0_4
  simp only [View.ld_unit_zero (S := S12x64) zero2]
  refine View.canon_apply_of_pieces (Val := Elt Ideal) (S := S8x12x196x64) (e := .f32) (group x0 x1 x2 x3) _ ?_ y (cover0_4 _ _ _ _ _ _ _ _ y)
  intro p hp z
  simp only [List.mem_cons, List.not_mem_nil, or_false] at hp
  rcases hp with rfl | rfl | rfl | rfl | rfl | rfl | rfl | rfl
  · exact tile_at x0 x1 x2 x3 ![7, 0, 0, 0] inb_S8x12x196x64_S1x12x196x64_7_0_0_0 (7 : Fin 8) rfl rfl rfl rfl _ _ _
      (fun h d c => by rw [dif_neg (by decide)]; exact zeros_at h d c)
      (fun h d c => by rw [dif_pos (by decide)]; exact frame_at x0 ![6, 0, 0, 0] inb_S8x12x196x64_S1x12x196x64_6_0_0_0 (6 : Fin 8) rfl rfl rfl rfl h d c)
      (fun h d c => frame_at x0 ![7, 0, 0, 0] inb_S8x12x196x64_S1x12x196x64_7_0_0_0 (7 : Fin 8) rfl rfl rfl rfl h d c) z
  · exact tile_at x0 x1 x2 x3 ![6, 0, 0, 0] inb_S8x12x196x64_S1x12x196x64_6_0_0_0 (6 : Fin 8) rfl rfl rfl rfl _ _ _
      (fun h d c => by rw [dif_pos (by decide)]; exact frame_at x0 ![7, 0, 0, 0] inb_S8x12x196x64_S1x12x196x64_7_0_0_0 (7 : Fin 8) rfl rfl rfl rfl h d c)
      (fun h d c => by rw [dif_pos (by decide)]; exact frame_at x0 ![5, 0, 0, 0] inb_S8x12x196x64_S1x12x196x64_5_0_0_0 (5 : Fin 8) rfl rfl rfl rfl h d c)
      (fun h d c => frame_at x0 ![6, 0, 0, 0] inb_S8x12x196x64_S1x12x196x64_6_0_0_0 (6 : Fin 8) rfl rfl rfl rfl h d c) z
  · exact tile_at x0 x1 x2 x3 ![5, 0, 0, 0] inb_S8x12x196x64_S1x12x196x64_5_0_0_0 (5 : Fin 8) rfl rfl rfl rfl _ _ _
      (fun h d c => by rw [dif_pos (by decide)]; exact frame_at x0 ![6, 0, 0, 0] inb_S8x12x196x64_S1x12x196x64_6_0_0_0 (6 : Fin 8) rfl rfl rfl rfl h d c)
      (fun h d c => by rw [dif_pos (by decide)]; exact frame_at x0 ![4, 0, 0, 0] inb_S8x12x196x64_S1x12x196x64_4_0_0_0 (4 : Fin 8) rfl rfl rfl rfl h d c)
      (fun h d c => frame_at x0 ![5, 0, 0, 0] inb_S8x12x196x64_S1x12x196x64_5_0_0_0 (5 : Fin 8) rfl rfl rfl rfl h d c) z
  · exact tile_at x0 x1 x2 x3 ![4, 0, 0, 0] inb_S8x12x196x64_S1x12x196x64_4_0_0_0 (4 : Fin 8) rfl rfl rfl rfl _ _ _
      (fun h d c => by rw [dif_pos (by decide)]; exact frame_at x0 ![5, 0, 0, 0] inb_S8x12x196x64_S1x12x196x64_5_0_0_0 (5 : Fin 8) rfl rfl rfl rfl h d c)
      (fun h d c => by rw [dif_pos (by decide)]; exact frame_at x0 ![3, 0, 0, 0] inb_S8x12x196x64_S1x12x196x64_3_0_0_0 (3 : Fin 8) rfl rfl rfl rfl h d c)
      (fun h d c => frame_at x0 ![4, 0, 0, 0] inb_S8x12x196x64_S1x12x196x64_4_0_0_0 (4 : Fin 8) rfl rfl rfl rfl h d c) z
  · exact tile_at x0 x1 x2 x3 ![3, 0, 0, 0] inb_S8x12x196x64_S1x12x196x64_3_0_0_0 (3 : Fin 8) rfl rfl rfl rfl _ _ _
      (fun h d c => by rw [dif_pos (by decide)]; exact frame_at x0 ![4, 0, 0, 0] inb_S8x12x196x64_S1x12x196x64_4_0_0_0 (4 : Fin 8) rfl rfl rfl rfl h d c)
      (fun h d c => by rw [dif_pos (by decide)]; exact frame_at x0 ![2, 0, 0, 0] inb_S8x12x196x64_S1x12x196x64_2_0_0_0 (2 : Fin 8) rfl rfl rfl rfl h d c)
      (fun h d c => frame_at x0 ![3, 0, 0, 0] inb_S8x12x196x64_S1x12x196x64_3_0_0_0 (3 : Fin 8) rfl rfl rfl rfl h d c) z
  · exact tile_at x0 x1 x2 x3 ![2, 0, 0, 0] inb_S8x12x196x64_S1x12x196x64_2_0_0_0 (2 : Fin 8) rfl rfl rfl rfl _ _ _
      (fun h d c => by rw [dif_pos (by decide)]; exact frame_at x0 ![3, 0, 0, 0] inb_S8x12x196x64_S1x12x196x64_3_0_0_0 (3 : Fin 8) rfl rfl rfl rfl h d c)
      (fun h d c => by rw [dif_pos (by decide)]; exact frame_at x0 ![1, 0, 0, 0] inb_S8x12x196x64_S1x12x196x64_1_0_0_0 (1 : Fin 8) rfl rfl rfl rfl h d c)
      (fun h d c => frame_at x0 ![2, 0, 0, 0] inb_S8x12x196x64_S1x12x196x64_2_0_0_0 (2 : Fin 8) rfl rfl rfl rfl h d c) z
  · exact tile_at x0 x1 x2 x3 ![1, 0, 0, 0] inb_S8x12x196x64_S1x12x196x64_1_0_0_0 (1 : Fin 8) rfl rfl rfl rfl _ _ _
      (fun h d c => by rw [dif_pos (by decide)]; exact frame_at x0 ![2, 0, 0, 0] inb_S8x12x196x64_S1x12x196x64_2_0_0_0 (2 : Fin 8) rfl rfl rfl rfl h d c)
      (fun h d c => by rw [dif_pos (by decide)]; exact frame_at x0 ![0, 0, 0, 0] inb_S8x12x196x64_S1x12x196x64_0_0_0_0 (0 : Fin 8) rfl rfl rfl rfl h d c)
      (fun h d c => frame_at x0 ![1, 0, 0, 0] inb_S8x12x196x64_S1x12x196x64_1_0_0_0 (1 : Fin 8) rfl rfl rfl rfl h d c) z
  · exact tile_at x0 x1 x2 x3 ![0, 0, 0, 0] inb_S8x12x196x64_S1x12x196x64_0_0_0_0 (0 : Fin 8) rfl rfl rfl rfl _ _ _
      (fun h d c => by rw [dif_pos (by decide)]; exact frame_at x0 ![1, 0, 0, 0] inb_S8x12x196x64_S1x12x196x64_1_0_0_0 (1 : Fin 8) rfl rfl rfl rfl h d c)
      (fun h d c => by rw [dif_neg (by decide)]; exact zeros_at h d c)
      (fun h d c => frame_at x0 ![0, 0, 0, 0] inb_S8x12x196x64_S1x12x196x64_0_0_0_0 (0 : Fin 8) rfl rfl rfl rfl h d c) z

end Cert.KernelIdeal.Group

end
-- ==== Proof.GroupShift.lean ====
/-
  A group's block is the shifted array's group.

  Let the block X be group g of an array A, X[s, h, d, c] = A[8 g + s, h, d, c], and let the masks be the indicators of
  the three ranges of the merged channel number k = 64 h + c. Then the blend the kernel stores,

      next * [k < 96] + prev * [96 <= k < 192] + X[s, h, d, c] * [192 <= k],

  is the value whose range holds k (`Cert.Shift.blend`), and since (8 g + s) mod 8 = s the frame after s inside the
  group is frame 8 g + s + 1 of A exactly when frame 8 g + s is not the last of its group, and likewise before: the
  block at (s, h, d, c) is the shifted array at (8 g + s, h, d, c).
-/
import proofs.«121973_j49512382988368_1_alg».proof.Proof.GroupBlock
import proofs.«121973_j49512382988368_1_alg».proof.Proof.Shift

noncomputable section

namespace Cert.KernelIdeal.Group

open Cert.KernelIdeal Idealize.ShloMosaic Idealize.ShloMosaic.ValueIdx

theorem group_is_shift (A : Cert.Shift.Arr.Idx → EReal) (X : Vec Ideal S8x12x196x64 .f32)
    (ML MR MI : Vec Ideal S12x64 .f32) (g : Fin 32)
    (hX : ∀ (s : Fin 8) (h : Fin 12) (d : Fin 196) (c : Fin 64),
      X (ix4 s h d c) = A (ix4 ⟨g.val * 8 + s.val, by have := g.isLt; have := s.isLt; omega⟩ h d c))
    (hML : ∀ (h : Fin 12) (c : Fin 64), ML (ix2 h c) = if h.val * 64 + c.val < 96 then (1 : EReal) else 0)
    (hMR : ∀ (h : Fin 12) (c : Fin 64),
      MR (ix2 h c) = if 96 ≤ h.val * 64 + c.val ∧ h.val * 64 + c.val < 192 then (1 : EReal) else 0)
    (hMI : ∀ (h : Fin 12) (c : Fin 64), MI (ix2 h c) = if 192 ≤ h.val * 64 + c.val then (1 : EReal) else 0)
    (s : Fin 8) (h : Fin 12) (d : Fin 196) (c : Fin 64) :
    groupAt X ML MR MI s h d c
      = Cert.Shift.shiftAt A ⟨g.val * 8 + s.val, by have := g.isLt; have := s.isLt; omega⟩ h d c := by
  have hg := g.isLt; have hs := s.isLt
  unfold groupAt Cert.Shift.shiftAt
  rw [hML, hMR, hMI, Cert.Shift.blend]
  by_cases h1 : h.val * 64 + c.val < 96
  · rw [if_pos h1, if_pos h1]
    by_cases h2 : s.val + 1 < 8
    · rw [dif_pos h2, dif_pos (by show (g.val * 8 + s.val) % 8 + 1 < 8; omega), hX]
      exact Cert.Shift.read_congr A (by show g.val * 8 + (s.val + 1) = g.val * 8 + s.val + 1; omega) rfl rfl rfl
    · rw [dif_neg h2, dif_neg (by show ¬ (g.val * 8 + s.val) % 8 + 1 < 8; omega)]
  · rw [if_neg h1, if_neg h1]
    by_cases h3 : h.val * 64 + c.val < 192
    · rw [if_pos h3, if_pos h3]
      by_cases h4 : 1 ≤ s.val
      · rw [dif_pos h4, dif_pos (by show 1 ≤ (g.val * 8 + s.val) % 8; omega), hX]
        exact Cert.Shift.read_congr A (by show g.val * 8 + (s.val - 1) = g.val * 8 + s.val - 1; omega) rfl rfl rfl
      · rw [dif_neg h4, dif_neg (by show ¬ 1 ≤ (g.val * 8 + s.val) % 8; omega)]
    · rw [if_neg h3, if_neg h3, hX]

end Cert.KernelIdeal.Group

end
-- ==== Proof.WholeArray.lean ====
/-
  The kernel's result array is the shifted array.

  The grid has 32 points; point t stages group t of the input (frames 8 t .. 8 t + 7) and the three whole mask arrays,
  and writes back group t of the output. By the group's block lemma the block written at t is the shifted array's
  group t; the 32 groups cover the 256 frames (frame n lies in group n / 8), so after the run the output array is the
  shifted array of the input as the region found it, and the region finds the input as launched.
-/
import proofs.«121973_j49512382988368_1_alg».proof.Proof.Gen.KernelIdeal.Value
import proofs.«121973_j49512382988368_1_alg».proof.Proof.MaskTables
import proofs.«121973_j49512382988368_1_alg».proof.Proof.GroupBlock
import proofs.«121973_j49512382988368_1_alg».proof.Proof.GroupShift
import proofs.«121973_j49512382988368_1_alg».proof.Proof.Shift
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The printed index maps over the grid: the input's and the output's block index at point t is (t, 0, 0, 0); the
    masks' is (0, 0). -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_4.index t (0 : Fin 4) = t.val ∧ win0_4.index t (1 : Fin 4) = 0 ∧ win0_4.index t (2 : Fin 4) = 0
    ∧ win0_4.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- What point t writes back is group t of the shifted array of the input as the region finds it. -/
theorem flushed_eq (c : Dev nD) (t : Fin cfg0.N) :
    (dats m 0 c).flushed 4 t
      = ((cfg0.win 4).blk t).view.read (Elt Ideal) (Cert.Shift.shifted (V m c main_arg0)) := by
  rw [Value.flushed4, Group.out_eq]
  obtain ⟨a0, a1, a2, a3, o0, o1, o2, o3, l0, l1, r0, r1, i0, i1⟩ := idx_facts t
  have htN : t.val < 32 := t.isLt
  funext j
  obtain ⟨s, h, d, e, rfl⟩ : ∃ (s : Fin 8) (h : Fin 12) (d : Fin 196) (e : Fin 64), j = ix4 s h d e :=
    ⟨j 0, j 1, j 2, j 3, eq_ix4 j⟩
  show Group.groupAt (iblk m c 0 t) (iblk m c 1 t) (iblk m c 2 t) (iblk m c 3 t) s h d e
      = Cert.Shift.shifted (V m c main_arg0) (((cfg0.win 4).blk t).view.emb (ix4 s h d e))
  have hs := s.isLt
  have eo : ((cfg0.win 4).blk t).view.emb (ix4 s h d e)
      = ix4 (⟨t.val * 8 + s.val, by omega⟩ : Fin 256) h d e := by
    funext a; apply Fin.ext
    match a with
    | ⟨0, _⟩ => show win0_4.index t (0 : Fin 4) * 8 + 1 * s.val = t.val * 8 + s.val; omega
    | ⟨1, _⟩ => show win0_4.index t (1 : Fin 4) * 12 + 1 * h.val = h.val; omega
    | ⟨2, _⟩ => show win0_4.index t (2 : Fin 4) * 196 + 1 * d.val = d.val; omega
    | ⟨3, _⟩ => show win0_4.index t (3 : Fin 4) * 64 + 1 * e.val = e.val; omega
  rw [eo, Cert.Shift.shifted_ix4]
  refine Group.group_is_shift (V m c main_arg0) (iblk m c 0 t) (iblk m c 1 t) (iblk m c 2 t) (iblk m c 3 t)
    (⟨t.val, htN⟩ : Fin 32) ?_ ?_ ?_ ?_ s h d e
  · intro s' h' d' e'
    have hs' := s'.isLt
    show V m c main_arg0 (((cfg0.win 0).blk t).view.emb (ix4 s' h' d' e')) = _
    refine congrArg (V m c main_arg0) (funext fun a => Fin.ext ?_)
    match a with
    | ⟨0, _⟩ => show win0_0.index t (0 : Fin 4) * 8 + 1 * s'.val = t.val * 8 + s'.val; omega
    | ⟨1, _⟩ => show win0_0.index t (1 : Fin 4) * 12 + 1 * h'.val = h'.val; omega
    | ⟨2, _⟩ => show win0_0.index t (2 : Fin 4) * 196 + 1 * d'.val = d'.val; omega
    | ⟨3, _⟩ => show win0_0.index t (3 : Fin 4) * 64 + 1 * e'.val = e'.val; omega
  · intro h' e'
    show V m c main_cst (((cfg0.win 1).blk t).view.emb (ix2 h' e')) = _
    have em : ((cfg0.win 1).blk t).view.emb (ix2 h' e') = ix2 h' e' := by
      funext a; apply Fin.ext
      match a with
      | ⟨0, _⟩ => show win0_1.index t (0 : Fin 2) * 12 + 1 * h'.val = h'.val; omega
      | ⟨1, _⟩ => show win0_1.index t (1 : Fin 2) * 64 + 1 * e'.val = e'.val; omega
    rw [em]
    exact Masks.next_at m c h' e'
  · intro h' e'
    show V m c main_cst_0 (((cfg0.win 2).blk t).view.emb (ix2 h' e')) = _
    have em : ((cfg0.win 2).blk t).view.emb (ix2 h' e') = ix2 h' e' := by
      funext a; apply Fin.ext
      match a with
      | ⟨0, _⟩ => show win0_2.index t (0 : Fin 2) * 12 + 1 * h'.val = h'.val; omega
      | ⟨1, _⟩ => show win0_2.index t (1 : Fin 2) * 64 + 1 * e'.val = e'.val; omega
    rw [em]
    exact Masks.prev_at m c h' e'
  · intro h' e'
    show V m c main_cst_1 (((cfg0.win 3).blk t).view.emb (ix2 h' e')) = _
    have em : ((cfg0.win 3).blk t).view.emb (ix2 h' e') = ix2 h' e' := by
      funext a; apply Fin.ext
      match a with
      | ⟨0, _⟩ => show win0_3.index t (0 : Fin 2) * 12 + 1 * h'.val = h'.val; omega
      | ⟨1, _⟩ => show win0_3.index t (1 : Fin 2) * 64 + 1 * e'.val = e'.val; omega
    rw [em]
    exact Masks.same_at m c h' e'

/-- An index of the array is in point t's block iff each coordinate is in the block's range on its axis. -/
theorem mem_blk (t : Fin cfg0.N) (i : S256x12x196x64.Idx) :
    i ∈ ((cfg0.win 4).blk t).view.set ↔ ∀ a : Fin 4, win0_4.index t a * S8x12x196x64.size a ≤ (i a).val
      ∧ (i a).val < win0_4.index t a * S8x12x196x64.size a + S8x12x196x64.size a := by
  show i ∈ ((View.whole main_v0).slice (win0_4.rect t)).set ↔ _
  rw [View.set_slice_whole, Rect.mem_set_unit]
  exact Iff.rfl

/-- Every index of the output array lies in the block of the point that stages its frame's group: frame n in group n / 8. -/
theorem covered (i : S256x12x196x64.Idx) :
    ∃ t : Fin cfg0.N, (cfg0.win 4).flush t = true ∧ i ∈ ((cfg0.win 4).blk t).view.set := by
  have hi0 : (i 0).val < 256 := (i 0).isLt
  have hi1 : (i 1).val < 12 := (i 1).isLt
  have hi2 : (i 2).val < 196 := (i 2).isLt
  have hi3 : (i 3).val < 64 := (i 3).isLt
  have hN : cfg0.N = 32 := N_0
  let t : Fin cfg0.N := ⟨(i 0).val / 8, by rw [hN]; omega⟩
  have htv : t.val = (i 0).val / 8 := rfl
  obtain ⟨a0, a1, a2, a3, o0, o1, o2, o3, l0, l1, r0, r1, i0, i1⟩ := idx_facts t
  refine ⟨t, flush0_4 t, ?_⟩
  rw [mem_blk]
  intro a
  match a with
  | ⟨0, _⟩ =>
    show win0_4.index t (0 : Fin 4) * 8 ≤ (i 0).val ∧ (i 0).val < win0_4.index t (0 : Fin 4) * 8 + 8
    omega
  | ⟨1, _⟩ =>
    show win0_4.index t (1 : Fin 4) * 12 ≤ (i 1).val ∧ (i 1).val < win0_4.index t (1 : Fin 4) * 12 + 12
    omega
  | ⟨2, _⟩ =>
    show win0_4.index t (2 : Fin 4) * 196 ≤ (i 2).val ∧ (i 2).val < win0_4.index t (2 : Fin 4) * 196 + 196
    omega
  | ⟨3, _⟩ =>
    show win0_4.index t (3 : Fin 4) * 64 ≤ (i 3).val ∧ (i 3).val < win0_4.index t (3 : Fin 4) * 64 + 64
    omega

/-- The output array after the run is the shifted array of the input as launched. -/
theorem final (c : Dev nD) :
    (dats m 0 c).arrAt 4 cfg0.N = Cert.Shift.shifted (m ((c : Thread nD τ).loc main_arg0)) := by
  rw [← V_main_arg0 m c]
  exact (dats m 0 c).arrAt_eq_of_cover 4 (Cert.Shift.shifted (V m c main_arg0)) (fun t _ => flushed_eq m c t) covered

/-- The kernel's run: the result array ends at the shifted array of the argument, the argument unchanged. -/
theorem run : θ_run defs (onTc (τ := τ) (main (F := Ideal))) ⟨m, fun _ => 0, ρ⟩ fun r => ∀ c : Dev nD,
      r.2.mem ((c : Thread nD τ).loc main_v0) = Cert.Shift.shifted (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.lean ====
/-
  A temporal shift along groups of eight frames, computed two ways.

  The input is x[n, h, d, c] of extents 256 x 12 x 196 x 64; n = 8 g + s is frame s of group g, and k = 64 h + c is the
  merged channel number of head h and channel c. The result y keeps x on the merged channels k >= 192, takes the next
  frame of the same group on k < 96 and the previous frame of the same group on 96 <= k < 192, with zeros where the
  group has no such frame (`Cert.Shift.shifted`, Proof/Shift.lean).

  The reference builds y by layout operations only: it merges head and channel into one axis, cuts the three ranges of
  k out of the frames 1..7, 0..6 and 0..7 of every group, pads the first two with a zero frame at the end and at the
  start of the group, joins the three strips and undoes the merge (Proof/RefShift.lean reads each operation at an index).

  The kernel works on one group per grid point and stores, for each frame s of the group,
  next * L + prev * R + x_s * I, where L, R, I are constant 0/1 tables over (h, c), the indicators of the three ranges
  of k (Proof/MaskTables.lean), and next / prev are the neighbouring frames of the group or a frame of zeros
  (Proof/GroupBlock.lean). Exactly one indicator is 1 at each (h, c), and on the extended reals t * 1 = t, t * 0 = 0,
  t + 0 = t for every t, infinite or not, so the blend selects the same value as the reference
  (Proof/GroupShift.lean); the 32 groups cover the array (Proof/WholeArray.lean). The equality therefore holds for all
  extended-real inputs and the finiteness precondition is never opened.

  The three frame claims are the generated frame runs (the reference's with its result dropped); the idealization
  rewrote nothing, so that claim is trivial.
-/
import proofs.«121973_j49512382988368_1_alg».proof.Defs
import proofs.«121973_j49512382988368_1_alg».proof.Proof.Gen.Kernel
import proofs.«121973_j49512382988368_1_alg».proof.Proof.Gen.Kernel.Skeleton
import proofs.«121973_j49512382988368_1_alg».proof.Proof.Gen.Kernel.Launch
import proofs.«121973_j49512382988368_1_alg».proof.Proof.Gen.Kernel.Points
import proofs.«121973_j49512382988368_1_alg».proof.Proof.Gen.Kernel.Frame
import proofs.«121973_j49512382988368_1_alg».proof.Proof.Gen.KernelIdeal
import proofs.«121973_j49512382988368_1_alg».proof.Proof.Gen.KernelIdeal.Skeleton
import proofs.«121973_j49512382988368_1_alg».proof.Proof.Gen.KernelIdeal.Launch
import proofs.«121973_j49512382988368_1_alg».proof.Proof.Gen.KernelIdeal.Points
import proofs.«121973_j49512382988368_1_alg».proof.Proof.Gen.KernelIdeal.Frame
import proofs.«121973_j49512382988368_1_alg».proof.Proof.Gen.KernelIdeal.Value
import proofs.«121973_j49512382988368_1_alg».proof.Proof.Gen.ReferenceIdeal
import proofs.«121973_j49512382988368_1_alg».proof.Proof.Gen.ReferenceIdeal.Run
import proofs.«121973_j49512382988368_1_alg».proof.Proof.Gen.ReferenceIdeal.Read
import proofs.«121973_j49512382988368_1_alg».proof.Proof.Gen.Pre_finite_inputs
import proofs.«121973_j49512382988368_1_alg».proof.Proof.Shift
import proofs.«121973_j49512382988368_1_alg».proof.Proof.RefShift
import proofs.«121973_j49512382988368_1_alg».proof.Proof.WholeArray
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its argument unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the shifted array of their (equal) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
